-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x1 : Shape := ⟨3, ![128, 1024, 1]⟩
abbrev S1024x512 : Shape := ⟨2, ![1024, 512]⟩
abbrev S_ : Shape := ⟨0, ![]⟩

class Facts : Prop where
  bcast_S_S128x1024x1 : S_.BroadcastsInDim S128x1024x1 (![] : Fin 0 → Fin S128x1024x1.rank)
  reducesTo_S128x1024x1_S_d0_1_2 : S128x1024x1.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S128x1024x1 .f32) (main_arg1 : FVec F S1024x512 .f32) (main_arg2 : FVec F S1024x512 .f32) : IVec S_ 1 :=
  let main_v0 : FVec F S128x1024x1 .f32 := Host.absf main_arg0
  let main_cst : FVec F S_ .f32 := constant S_ .f32 0x7F800000#32
  let main_v1 : FVec F S128x1024x1 .f32 := broadcastInDim S128x1024x1 ![] bcast_S_S128x1024x1 main_cst
  let main_v2 : IVec S128x1024x1 1 := cmpf .olt main_v0 main_v1
  let main_c : IVec S_ 1 := constantI S_ 1 1#1
  let main_v3 : IVec S_ 1 := (fun x v => Host.reduce IntOp.andi x v reducesTo_S128x1024x1_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S128x1024x1 : Shape := ⟨3, ![128, 1024, 1]⟩
abbrev S1024x512 : Shape := ⟨2, ![1024, 512]⟩
abbrev S128x1024 : Shape := ⟨2, ![128, 1024]⟩
abbrev S128x1024x512 : Shape := ⟨3, ![128, 1024, 512]⟩
abbrev S64x128 : Shape := ⟨2, ![64, 128]⟩
abbrev S128x512 : Shape := ⟨2, ![128, 512]⟩
abbrev S64x128x512 : Shape := ⟨3, ![64, 128, 512]⟩
abbrev S64x128x1 : Shape := ⟨3, ![64, 128, 1]⟩
abbrev S1x128x512 : Shape := ⟨3, ![1, 128, 512]⟩

abbrev nBuf : Space → Nat
  | .hbm => 5
  | .vmem => 8
  | .smem => 0
  | _ => 0

abbrev bufTy : (tb : Table) → Fin (tcTables nBuf tb) → BufTy
  | .hbm, ⟨0, _⟩ => ⟨S128x1024x1, .f32⟩
  | .hbm, ⟨1, _⟩ => ⟨S1024x512, .f32⟩
  | .hbm, ⟨2, _⟩ => ⟨S1024x512, .f32⟩
  | .hbm, ⟨3, _⟩ => ⟨S128x1024, .f32⟩
  | .hbm, ⟨4, _⟩ => ⟨S128x1024x512, .f32⟩
  | .local _ .vmem, ⟨0, _⟩ => ⟨S64x128, .f32⟩
  | .local _ .vmem, ⟨1, _⟩ => ⟨S64x128, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S64x128x512, .f32⟩
  | .local _ .vmem, ⟨7, _⟩ => ⟨S64x128x512, .f32⟩
  | _, _ => ⟨S128x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S128x1024x1_S128x1024 : S128x1024x1.ShapeCasts S128x1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  inb_S128x512_S128x512_0_0 : ∀ a, (![0, 0] : Fin 2 → Nat) a + S128x512.size a ≤ S128x512.size a
  h_S128x512 : 0 < S128x512.numel
  shapeCasts_S128x512_S1x128x512 : S128x512.ShapeCasts S1x128x512
  broadcasts_S64x128x1_S64x128x512 : S64x128x1.Broadcasts S64x128x512
  broadcasts_S1x128x512_S64x128x512 : S1x128x512.Broadcasts S64x128x512
  inb_S64x128x512_S64x128x512_0_0_0 : ∀ a, (![0, 0, 0] : Fin 3 → Nat) a + S64x128x512.size a ≤ S64x128x512.size a
  h_S64x128x512 : 0 < S64x128x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S128x1024.size a
  hwx0_0 : ∀ i : grid0.Coords, EltTy.bits .f32 = 32 ∨ (Rect.block (s := S128x1024) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x512.size a
  hwx0_1 : ∀ i : grid0.Coords, EltTy.bits .f32 = 32 ∨ (Rect.block (s := S1024x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S1024x512.size a
  hwx0_2 : ∀ i : grid0.Coords, EltTy.bits .f32 = 32 ∨ (Rect.block (s := S1024x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x512.size a ≤ S128x1024x512.size a
  hwx0_3 : ∀ i : grid0.Coords, EltTy.bits .f32 = 32 ∨ (Rect.block (s := S128x1024x512) S64x128x512.size (cc0_transform_3 i) (hinb0_3 i)).WholeWords (EltTy.packing .f32)

variable [Facts₀]

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024x1 : Shape := ⟨3, ![128, 1024, 1]⟩
abbrev S1024x512 : Shape := ⟨2, ![1024, 512]⟩
abbrev S1x1024x512 : Shape := ⟨3, ![1, 1024, 512]⟩
abbrev S128x1024x512 : Shape := ⟨3, ![128, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S128x1024x1, .f32⟩
  | .hbm, ⟨1, _⟩ => ⟨S1024x512, .f32⟩
  | .hbm, ⟨2, _⟩ => ⟨S1024x512, .f32⟩
  | .hbm, ⟨3, _⟩ => ⟨S1x1024x512, .f32⟩
  | .hbm, ⟨4, _⟩ => ⟨S128x1024x512, .f32⟩
  | .hbm, ⟨5, _⟩ => ⟨S128x1024x512, .f32⟩
  | .hbm, ⟨6, _⟩ => ⟨S128x1024x512, .f32⟩
  | .hbm, ⟨7, _⟩ => ⟨S1x1024x512, .f32⟩
  | .hbm, ⟨8, _⟩ => ⟨S128x1024x512, .f32⟩
  | .hbm, ⟨9, _⟩ => ⟨S128x1024x512, .f32⟩
  | _, _ => ⟨S128x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S1024x512_S1x1024x512_1_2 : S1024x512.BroadcastsInDim S1x1024x512 (![1, 2] : Fin 2 → Fin S1x1024x512.rank)
  bcast_S128x1024x1_S128x1024x512_0_1_2 : S128x1024x1.BroadcastsInDim S128x1024x512 (![0, 1, 2] : Fin 3 → Fin S128x1024x512.rank)
  bcast_S1x1024x512_S128x1024x512_0_1_2 : S1x1024x512.BroadcastsInDim S128x1024x512 (![0, 1, 2] : Fin 3 → Fin S128x1024x512.rank)

variable [Facts₀]

class Facts : Prop extends Facts₀ where

variable [Facts]
-- ==== Proof.Affine.lean ====
/-
  The function both programs compute. The arguments are a column of scalars per feature, `x : [128, 1024, 1]`, and one weight
  row and one bias row per feature, `W b : [1024, 512]`. Entry `(p, q, r)` of the result `[128, 1024, 512]` is

      x[p, q, 0] · W[q, r] + b[q, r]:

  feature `q` of sample `p` is a single number, and its image is that number times the feature's weight row plus the
  feature's bias row. Each entry is one product followed by one sum of three argument entries, so the statement is the same
  at every float instance: it is written over an arbitrary one, and no law of the extended reals is needed to compare two
  programs that both multiply first and add second.
-/
import Idealize.ShloMosaic.PureOps
import Idealize.ShloMosaic.Lib.ValueIdx

noncomputable section

namespace Cert.Affine

open Idealize.ShloMosaic Idealize.ShloMosaic.ValueIdx

variable {F : FTy → Type} [FloatOps F]

/-- The scalar of sample `p`, feature `q`: the one entry of the trailing unit axis. -/
abbrev atX (p : Fin 128) (q : Fin 1024) : (⟨3, ![128, 1024, 1]⟩ : Shape).Idx := ix3 p q (0 : Fin 1)

/-- Column `r` of feature `q`'s row. -/
abbrev atRow (q : Fin 1024) (r : Fin 512) : (⟨2, ![1024, 512]⟩ : Shape).Idx := ix2 q r

/-- `out[p, q, r] = x[p, q, 0] · W[q, r] + b[q, r]`. -/
def affine (x : Vec F ⟨3, ![128, 1024, 1]⟩ .f32) (W b : Vec F ⟨2, ![1024, 512]⟩ .f32) :
    Vec F ⟨3, ![128, 1024, 512]⟩ .f32 :=
  fun i => FloatOps.addf (FloatOps.mulf (x (atX (i 0) (i 1))) (W (atRow (i 1) (i 2)))) (b (atRow (i 1) (i 2)))

/-- The entry at explicit coordinates. -/
theorem affine_apply (x : Vec F ⟨3, ![128, 1024, 1]⟩ .f32) (W b : Vec F ⟨2, ![1024, 512]⟩ .f32)
    (p : Fin 128) (q : Fin 1024) (r : Fin 512) :
    affine x W b (ix3 p q r) = FloatOps.addf (FloatOps.mulf (x (atX p q)) (W (atRow q r))) (b (atRow q r)) := rfl

end Cert.Affine

end
-- ==== Proof.ReferenceAffine.lean ====
/-
  The reference is `affine`. Its program broadcasts the three arguments to the result's shape — `x` along the trailing
  axis (its unit axis repeated 512 times), each of `W` and `b` first to a leading unit axis and then along it (128 copies) —,
  multiplies the first two and adds the third. A broadcast read at `(p, q, r)` is the operand at the coordinates it keeps:
  `x` at `(p, q, 0)`, `W` and `b` at `(q, r)`. So the composed term read at an index is the product and the sum of
  exactly the three entries `affine` names.
-/
import proofs.«138300_j27986006901450_2_alg».proof.Proof.Gen.ReferenceIdeal.Read
import proofs.«138300_j27986006901450_2_alg».proof.Proof.Affine

noncomputable section

namespace Cert.ReferenceIdeal.AffineValue

open Cert.ReferenceIdeal Cert.ReferenceIdeal.Gen Cert.ReferenceIdeal.Read Idealize.ShloMosaic Idealize.ShloMosaic.ValueIdx
open Cert.Affine

variable {F : FTy → Type} [FloatOps F]

/-- Where the broadcast of `x` reads it: sample and feature kept, the unit axis at its one entry. -/
theorem x_index (i : S128x1024x512.Idx) : idx_main_v1 i = atX (i 0) (i 1) :=
  funext fun a => Fin.ext (by match a with | ⟨0, _⟩ => rfl | ⟨1, _⟩ => rfl | ⟨2, _⟩ => rfl)

/-- Where the two broadcasts of `W` read it: feature and column kept, the sample dropped. -/
theorem w_index (i : S128x1024x512.Idx) : idx_main_v0 (idx_main_v2 i) = atRow (i 1) (i 2) :=
  funext fun a => Fin.ext (by match a with | ⟨0, _⟩ => rfl | ⟨1, _⟩ => rfl)

/-- Where the two broadcasts of `b` read it: the same entry as `W`'s. -/
theorem b_index (i : S128x1024x512.Idx) : idx_main_v4 (idx_main_v5 i) = atRow (i 1) (i 2) :=
  funext fun a => Fin.ext (by match a with | ⟨0, _⟩ => rfl | ⟨1, _⟩ => rfl)

/-- The reference's last stage, as a function of the three arguments, is `affine`. -/
theorem stage_eq (x : Vec F S128x1024x1 .f32) (W b : Vec F S1024x512 .f32) :
    val_main_v6 (F := F) x W b = affine x W b := by
  funext i
  rw [val_main_v6_apply, val_main_v3_apply, val_main_v1_apply, val_main_v2_apply, val_main_v0_apply,
    val_main_v5_apply, val_main_v4_apply, x_index, w_index, b_index]
  rfl

end Cert.ReferenceIdeal.AffineValue

end
-- ==== Proof.KernelAffine.lean ====
/-
  The kernel's result array is `affine` of its arguments.

  The grid has 8 × 2 points. Point `(j, i)` works on the batch tile `i` (64 samples) and the feature tile `j` (128
  features): it reads rows `64 i …`, columns `128 j …` of the scalars (the argument `x` with its trailing unit axis
  dropped before the launch), rows `128 j …` of `W` and of `b`, all 512 columns, and writes the block
  `(i, j, 0)` of extents `64 × 128 × 512` of the result. Inside a block the body computes, at `(u, v, r)`, the
  scalar at `(u, v)` times the weight at `(v, r)` plus the bias at `(v, r)`. Put back at the block's place in the array
  this is `affine` at `(64 i + u, 128 j + v, r)`. The sixteen blocks tile the array, so the whole array ends at `affine`.
-/
import proofs.«138300_j27986006901450_2_alg».proof.Proof.Gen.KernelIdeal.Value
import proofs.«138300_j27986006901450_2_alg».proof.Proof.Affine
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineValue

open Cert.KernelIdeal Cert.KernelIdeal.Gen Cert.KernelIdeal.Value Cert.Affine

variable {F : FTy → Type} [FloatOps F]
variable (m : (ℓ : Loc nD τ sig) → Buf (Elt F) ℓ) (ρ : Dev nD → PrngReg)

/-! ## The scalars as the region finds them -/

/-- The one operation before the launch drops `x`'s trailing unit axis: the region finds the scalars as a
    `128 × 1024` array with the same entries in the same row-major order. -/
theorem scalars_entry (c : Dev nD) :
    (V m c main_v0 : S128x1024.Idx → Elt F .f32)
      = shapeCast S128x1024 (m ((c : Thread nD τ).loc main_arg0)) shapeCasts_S128x1024x1_S128x1024 := by
  dsimp only [Gen.V, Gen.hostOps0]
  after_results
  rfl

/-- Dropping a trailing unit axis keeps every entry at its two leading coordinates. -/
theorem squeeze_apply (X : Vec F S128x1024x1 .f32) (j : S128x1024.Idx) (k : S128x1024x1.Idx)
    (h0 : (k 0).val = (j 0).val) (h1 : (k 1).val = (j 1).val) :
    shapeCast S128x1024 X shapeCasts_S128x1024x1_S128x1024 j = X k := by
  refine shapeCast_apply X _ j k ?_
  rw [Shape.rowMajor_val_three, Shape.rowMajor_val_two]
  show ((k 0).val * 1024 + (k 1).val) * 1 + (k 2).val = (j 0).val * 1024 + (j 1).val
  have h2 : (k 2).val < 1 := (k 2).isLt
  omega

/-! ## What one point leaves in its output block -/

theorem zeros2 : (![0, 0] : Fin 2 → Nat) = fun _ => 0 := funext fun a => by fin_cases a <;> rfl

/-- The body's result for the output block, entry by entry: the scalar of the entry's sample and feature times the
    weight of its feature and column, plus the bias there. -/
theorem block_eq (P0 : Vec F S64x128 .f32) (P1 P2 : Vec F S128x512 .f32) : out0_3 P0 P1 P2 = E3 P0 P1 P2 := by
  funext y
  unfold out0_3
  rw [canon3_eq]
  simp only [View.ld_unit_zero (S := S64x128) zeros2, View.ld_unit_zero (S := S128x512) zeros2]

/-! ## The index maps, decided over the sixteen points -/

/-- The scalars' block moves with the output's on its two leading axes; the weights' and the biases' block row is the
    output's feature tile and they have one block column; the output has one block on its last axis, two on its first
    and eight on its second. -/
theorem index_facts : ∀ t : Fin cfg0.N,
    win0_0.index t (0 : Fin 2) = win0_3.index t (0 : Fin 3)
    ∧ win0_0.index t (1 : Fin 2) = win0_3.index t (1 : Fin 3)
    ∧ win0_1.index t (0 : Fin 2) = win0_3.index t (1 : Fin 3)
    ∧ win0_1.index t (1 : Fin 2) = 0
    ∧ win0_2.index t (0 : Fin 2) = win0_3.index t (1 : Fin 3)
    ∧ win0_2.index t (1 : Fin 2) = 0
    ∧ win0_3.index t (2 : Fin 3) = 0
    ∧ win0_3.index t (0 : Fin 3) ≤ 1
    ∧ win0_3.index t (1 : Fin 3) ≤ 7 :=
  (by decide +kernel : ∀ t : Fin grid0.N, _)

/-- Every batch tile and feature tile is some point's output block. -/
theorem index_onto : ∀ (q0 : Fin 2) (q1 : Fin 8), ∃ t : Fin cfg0.N, win0_3.index t = ![q0.val, q1.val, 0] :=
  (by decide +kernel : ∀ (q0 : Fin 2) (q1 : Fin 8), ∃ t : Fin grid0.N, win0_3.index t = ![q0.val, q1.val, 0])

/-! ## The input blocks as entries of the arguments -/

/-- An entry of the scalars' block at point `t` is the entry of `x` at the block's place, on the unit axis's one index. -/
theorem scalars_block (c : Dev nD) (t : Fin cfg0.N) (z : S64x128.Idx) (k : S128x1024x1.Idx)
    (hk0 : (k 0).val = win0_0.index t (0 : Fin 2) * 64 + (z 0).val)
    (hk1 : (k 1).val = win0_0.index t (1 : Fin 2) * 128 + (z 1).val) :
    (iblk m c 0 t : Vec F S64x128 .f32) z = (m ((c : Thread nD τ).loc main_arg0) : S128x1024x1.Idx → Elt F .f32) k := by
  unfold iblk
  rw [View.read_apply]
  show V m c main_v0 _ = _
  rw [scalars_entry m c]
  refine squeeze_apply _ _ k ?_ ?_
  · show (k 0).val = win0_0.index t (0 : Fin 2) * 64 + 1 * (z 0).val
    rw [hk0]; omega
  · show (k 1).val = win0_0.index t (1 : Fin 2) * 128 + 1 * (z 1).val
    rw [hk1]; omega

/-- An entry of the weights' block at point `t` is the entry of `W` at the block's place. -/
theorem weights_block (c : Dev nD) (t : Fin cfg0.N) (z : S128x512.Idx) (k : S1024x512.Idx)
    (hk0 : (k 0).val = win0_1.index t (0 : Fin 2) * 128 + (z 0).val)
    (hk1 : (k 1).val = win0_1.index t (1 : Fin 2) * 512 + (z 1).val) :
    (iblk m c 1 t : Vec F S128x512 .f32) z = (m ((c : Thread nD τ).loc main_arg1) : S1024x512.Idx → Elt F .f32) k := by
  unfold iblk
  rw [View.read_apply]
  show V m c main_arg1 _ = _
  rw [V_main_arg1]
  congr 1
  funext a
  apply Fin.ext
  match a with
  | ⟨0, _⟩ => show win0_1.index t (0 : Fin 2) * 128 + 1 * (z 0).val = (k 0).val; rw [hk0]; omega
  | ⟨1, _⟩ => show win0_1.index t (1 : Fin 2) * 512 + 1 * (z 1).val = (k 1).val; rw [hk1]; omega

/-- An entry of the biases' block at point `t` is the entry of `b` at the block's place. -/
theorem biases_block (c : Dev nD) (t : Fin cfg0.N) (z : S128x512.Idx) (k : S1024x512.Idx)
    (hk0 : (k 0).val = win0_2.index t (0 : Fin 2) * 128 + (z 0).val)
    (hk1 : (k 1).val = win0_2.index t (1 : Fin 2) * 512 + (z 1).val) :
    (iblk m c 2 t : Vec F S128x512 .f32) z = (m ((c : Thread nD τ).loc main_arg2) : S1024x512.Idx → Elt F .f32) k := by
  unfold iblk
  rw [View.read_apply]
  show V m c main_arg2 _ = _
  rw [V_main_arg2]
  congr 1
  funext a
  apply Fin.ext
  match a with
  | ⟨0, _⟩ => show win0_2.index t (0 : Fin 2) * 128 + 1 * (z 0).val = (k 0).val; rw [hk0]; omega
  | ⟨1, _⟩ => show win0_2.index t (1 : Fin 2) * 512 + 1 * (z 1).val = (k 1).val; rw [hk1]; omega

/-! ## Each point writes its block of `affine` -/

/-- The result array both programs end at, as a function of the launch contents of the three arguments. -/
abbrev result (c : Dev nD) : Vec F S128x1024x512 .f32 :=
  affine (m ((c : Thread nD τ).loc main_arg0)) (m ((c : Thread nD τ).loc main_arg1)) (m ((c : Thread nD τ).loc main_arg2))

/-- What point `t` writes back is block `t` of `affine` of the arguments. -/
theorem flushed_eq (c : Dev nD) (t : Fin cfg0.N) :
    (dats m 0 c).flushed 3 t = ((cfg0.win 3).blk t).view.read (Elt F) (result m c) := by
  rw [Value.flushed3, block_eq (iblk m c 0 t) (iblk m c 1 t) (iblk m c 2 t)]
  obtain ⟨e0, e1, e2, e3, e4, e5, e6, -, -⟩ := index_facts t
  funext y
  show FloatOps.addf (FloatOps.mulf (iblk m c 0 t (ix3_0 y)) (iblk m c 1 t (ix3_1 y))) (iblk m c 2 t (ix3_2 y))
    = FloatOps.addf (FloatOps.mulf
        ((m ((c : Thread nD τ).loc main_arg0) : S128x1024x1.Idx → Elt F .f32)
          (atX ((((cfg0.win 3).blk t).view.emb y) 0) ((((cfg0.win 3).blk t).view.emb y) 1)))
        ((m ((c : Thread nD τ).loc main_arg1) : S1024x512.Idx → Elt F .f32)
          (atRow ((((cfg0.win 3).blk t).view.emb y) 1) ((((cfg0.win 3).blk t).view.emb y) 2))))
        ((m ((c : Thread nD τ).loc main_arg2) : S1024x512.Idx → Elt F .f32)
          (atRow ((((cfg0.win 3).blk t).view.emb y) 1) ((((cfg0.win 3).blk t).view.emb y) 2)))
  refine congrArg₂ FloatOps.addf (congrArg₂ FloatOps.mulf ?_ ?_) ?_
  · refine scalars_block m c t (ix3_0 y)
      (atX ((((cfg0.win 3).blk t).view.emb y) 0) ((((cfg0.win 3).blk t).view.emb y) 1)) ?_ ?_
    · show win0_3.index t (0 : Fin 3) * 64 + 1 * (y 0).val = win0_0.index t (0 : Fin 2) * 64 + (y 0).val
      rw [e0]; omega
    · show win0_3.index t (1 : Fin 3) * 128 + 1 * (y 1).val = win0_0.index t (1 : Fin 2) * 128 + (y 1).val
      rw [e1]; omega
  · refine weights_block m c t (ix3_1 y)
      (atRow ((((cfg0.win 3).blk t).view.emb y) 1) ((((cfg0.win 3).blk t).view.emb y) 2)) ?_ ?_
    · show win0_3.index t (1 : Fin 3) * 128 + 1 * (y 1).val = win0_1.index t (0 : Fin 2) * 128 + (y 1).val
      rw [e2]; omega
    · show win0_3.index t (2 : Fin 3) * 512 + 1 * (y 2).val = win0_1.index t (1 : Fin 2) * 512 + (y 2).val
      rw [e3, e6]; omega
  · refine biases_block m c t (ix3_2 y)
      (atRow ((((cfg0.win 3).blk t).view.emb y) 1) ((((cfg0.win 3).blk t).view.emb y) 2)) ?_ ?_
    · show win0_3.index t (1 : Fin 3) * 128 + 1 * (y 1).val = win0_2.index t (0 : Fin 2) * 128 + (y 1).val
      rw [e4]; omega
    · show win0_3.index t (2 : Fin 3) * 512 + 1 * (y 2).val = win0_2.index t (1 : Fin 2) * 512 + (y 2).val
      rw [e5, e6]; omega

/-! ## The blocks tile the array -/

/-- An index of the result array is in point `t`'s block iff each coordinate is in the block's range on its axis. -/
theorem mem_block (t : Fin cfg0.N) (i : S128x1024x512.Idx) :
    i ∈ ((cfg0.win 3).blk t).view.set ↔
      ∀ a : Fin 3, win0_3.index t a * S64x128x512.size a ≤ (i a).val
        ∧ (i a).val < win0_3.index t a * S64x128x512.size a + S64x128x512.size a := by
  show i ∈ ((View.whole main_v1).slice (win0_3.rect t)).set ↔ _
  rw [View.set_slice_whole, Rect.mem_set_unit]
  exact Iff.rfl

/-- Every index of the result array is in the block of the point whose batch tile holds its sample and whose feature
    tile holds its feature. -/
theorem covered (i : S128x1024x512.Idx) :
    ∃ t : Fin cfg0.N, (cfg0.win 3).flush t = true ∧ i ∈ ((cfg0.win 3).blk t).view.set := by
  have hi0 : (i 0).val < 128 := (i 0).isLt
  have hi1 : (i 1).val < 1024 := (i 1).isLt
  have hi2 : (i 2).val < 512 := (i 2).isLt
  obtain ⟨t, ht⟩ := index_onto ⟨(i 0).val / 64, by omega⟩ ⟨(i 1).val / 128, by omega⟩
  have q0 : win0_3.index t (0 : Fin 3) = (i 0).val / 64 := congrFun ht 0
  have q1 : win0_3.index t (1 : Fin 3) = (i 1).val / 128 := congrFun ht 1
  have q2 : win0_3.index t (2 : Fin 3) = 0 := congrFun ht 2
  refine ⟨t, flush0_3 t, ?_⟩
  rw [mem_block]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 512 ≤ (i 2).val ∧ (i 2).val < win0_3.index t (2 : Fin 3) * 512 + 512
    omega

/-- The result array after the run is `affine` of the arguments. -/
theorem final (c : Dev nD) : (dats m 0 c).arrAt 3 cfg0.N = result m c :=
  (dats m 0 c).arrAt_eq_of_cover 3 (result m c) (fun t _ => flushed_eq m c t) covered

/-! ## The run -/

/-- Every weakly fair execution of the kernel's program terminates with the result array at `affine` of the arguments
    and the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AffineValue

end
-- ==== Proof.lean ====
/-
  The certificate of a per-feature affine map of scalars: from `x : [128, 1024, 1]` and `W b : [1024, 512]`,

      out[p, q, r] = x[p, q, 0] · W[q, r] + b[q, r]        (out : [128, 1024, 512]).

  The kernel drops `x`'s unit axis, cuts the result into 2 × 8 blocks of 64 samples by 128 features (all 512 columns) and
  computes each block from the matching 64 × 128 scalars and the 128 rows of `W` and `b`; the reference broadcasts the
  three arguments to the result's shape, multiplies and adds. Both form, for every entry, the same product and then the
  same sum of the same three argument entries, so the two results are equal entry by entry whatever the floats are — in
  particular over the extended reals, with no use of finiteness and no algebraic law.

  Proof/Affine.lean states the function; Proof/ReferenceAffine.lean reads the reference's broadcasts at an index and finds
  it; Proof/KernelAffine.lean reads one block of the kernel at an index, places it in the array, shows the sixteen blocks
  tile the array, and so finds the same function. The three programs terminate without faults and leave their arguments
  as they were: for the two kernels that is the run of their pipelines, for the reference the run of its seven operations.
  The idealized kernel is the kernel's own text read over the extended reals, so nothing is owed for that step.
-/
import proofs.«138300_j27986006901450_2_alg».proof.Defs
import proofs.«138300_j27986006901450_2_alg».proof.Proof.Gen.Kernel
import proofs.«138300_j27986006901450_2_alg».proof.Proof.Gen.Kernel.Skeleton
import proofs.«138300_j27986006901450_2_alg».proof.Proof.Gen.Kernel.Launch
import proofs.«138300_j27986006901450_2_alg».proof.Proof.Gen.Kernel.Points
import proofs.«138300_j27986006901450_2_alg».proof.Proof.Gen.Kernel.Frame
import proofs.«138300_j27986006901450_2_alg».proof.Proof.Gen.KernelIdeal
import proofs.«138300_j27986006901450_2_alg».proof.Proof.Gen.KernelIdeal.Skeleton
import proofs.«138300_j27986006901450_2_alg».proof.Proof.Gen.KernelIdeal.Launch
import proofs.«138300_j27986006901450_2_alg».proof.Proof.Gen.KernelIdeal.Points
import proofs.«138300_j27986006901450_2_alg».proof.Proof.Gen.KernelIdeal.Frame
import proofs.«138300_j27986006901450_2_alg».proof.Proof.Gen.ReferenceIdeal
import proofs.«138300_j27986006901450_2_alg».proof.Proof.Gen.Pre_finite_inputs
import proofs.«138300_j27986006901450_2_alg».proof.Proof.Gen.KernelIdeal.Value
import proofs.«138300_j27986006901450_2_alg».proof.Proof.Gen.ReferenceIdeal.Run
import proofs.«138300_j27986006901450_2_alg».proof.Proof.Gen.ReferenceIdeal.Read
import proofs.«138300_j27986006901450_2_alg».proof.Proof.Affine
import proofs.«138300_j27986006901450_2_alg».proof.Proof.ReferenceAffine
import proofs.«138300_j27986006901450_2_alg».proof.Proof.KernelAffine
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on `x`, `W` and `b`, the kernel's result array and the reference's both end at
    `x[p, q, 0] · W[q, r] + b[q, r]` of those arguments. -/
theorem algebraic : Cert.algebraic_KernelIdeal_ReferenceIdeal := by
  intro m ρ m' ρ' _ hagree
  refine ⟨fun c => Cert.KernelIdeal.AffineValue.result m c, Cert.KernelIdeal.AffineValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.AffineValue.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
